-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S_ : Shape := ⟨0, ![]⟩

class Facts : Prop where
  bcast_S_S16x64x1x640 : S_.BroadcastsInDim S16x64x1x640 (![] : Fin 0 → Fin S16x64x1x640.rank)
  reducesTo_S16x64x1x640_S_d0_1_2_3 : S16x64x1x640.ReducesTo [0, 1, 2, 3] S_
  h_S_ : 0 < S_.numel
  bcast_S_S16x64x1x1 : S_.BroadcastsInDim S16x64x1x1 (![] : Fin 0 → Fin S16x64x1x1.rank)
  reducesTo_S16x64x1x1_S_d0_1_2_3 : S16x64x1x1.ReducesTo [0, 1, 2, 3] S_
  bcast_S_S256x1 : S_.BroadcastsInDim S256x1 (![] : Fin 0 → Fin S256x1.rank)
  reducesTo_S256x1_S_d0_1 : S256x1.ReducesTo [0, 1] S_
  bcast_S_S1x640 : S_.BroadcastsInDim S1x640 (![] : Fin 0 → Fin S1x640.rank)
  reducesTo_S1x640_S_d0_1 : S1x640.ReducesTo [0, 1] S_

variable [Facts]

def fn_part1 {F : FTy → Type} [FloatOps F] (main_arg4 : FVec F S256x1 .f32) (main_arg5 : FVec F S256x1 .f32) (main_arg6 : FVec F S1x640 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1x640 .f32 := Host.absf main_arg6
  let main_cst_10 : FVec F S_ .f32 := constant S_ .f32 0x7F800000#32
  let main_v30 : FVec F S1x640 .f32 := broadcastInDim S1x640 ![] bcast_S_S1x640 main_cst_10
  let main_v31 : IVec S1x640 1 := cmpf .olt main_v29 main_v30
  let main_c_11 : IVec S_ 1 := constantI S_ 1 1#1
  let main_v32 : IVec S_ 1 := (fun x v => Host.reduce IntOp.andi x v reducesTo_S1x640_S_d0_1 h_S_) main_v31 main_c_11
  let main_v33 : IVec S_ 1 := andi main_v28 main_v32
  main_v33

def fn {F : FTy → Type} [FloatOps F] (main_arg0 : FVec F S16x64x1x640 .f32) (main_arg1 : FVec F S16x64x1x1 .f32) (main_arg2 : FVec F S16x64x1x1 .f32) (main_arg3 : FVec F S256x1 .f32) (main_arg4 : FVec F S256x1 .f32) (main_arg5 : FVec F S256x1 .f32) (main_arg6 : FVec F S1x640 .f32) : IVec S_ 1 :=
  let main_v0 : FVec F S16x64x1x640 .f32 := Host.absf main_arg0
  let main_cst : FVec F S_ .f32 := constant S_ .f32 0x7F800000#32
  let main_v1 : FVec F S16x64x1x640 .f32 := broadcastInDim S16x64x1x640 ![] bcast_S_S16x64x1x640 main_cst
  let main_v2 : IVec S16x64x1x640 1 := cmpf .olt main_v0 main_v1
  let main_c : IVec S_ 1 := constantI S_ 1 1#1
  let main_v3 : IVec S_ 1 := (fun x v => Host.reduce IntOp.andi x v reducesTo_S16x64x1x640_S_d0_1_2_3 h_S_) main_v2 main_c
  let main_v4 : FVec F S16x64x1x1 .f32 := Host.absf main_arg1
  let main_cst_0 : FVec F S_ .f32 := constant S_ .f32 0x7F800000#32
  let main_v5 : FVec F S16x64x1x1 .f32 := broadcastInDim S16x64x1x1 ![] bcast_S_S16x64x1x1 main_cst_0
  let main_v6 : IVec S16x64x1x1 1 := cmpf .olt main_v4 main_v5
  let main_c_1 : IVec S_ 1 := constantI S_ 1 1#1
  let main_v7 : IVec S_ 1 := (fun x v => Host.reduce IntOp.andi x v reducesTo_S16x64x1x1_S_d0_1_2_3 h_S_) main_v6 main_c_1
  let main_v8 : IVec S_ 1 := andi main_v3 main_v7
  let main_v9 : FVec F S16x64x1x1 .f32 := Host.absf main_arg2
  let main_cst_2 : FVec F S_ .f32 := constant S_ .f32 0x7F800000#32
  let main_v10 : FVec F S16x64x1x1 .f32 := broadcastInDim S16x64x1x1 ![] bcast_S_S16x64x1x1 main_cst_2
  let main_v11 : IVec S16x64x1x1 1 := cmpf .olt main_v9 main_v10
  let main_c_3 : IVec S_ 1 := constantI S_ 1 1#1
  let main_v12 : IVec S_ 1 := (fun x v => Host.reduce IntOp.andi x v reducesTo_S16x64x1x1_S_d0_1_2_3 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S1024x640 : Shape := ⟨2, ![1024, 640]⟩
abbrev S1024x1 : Shape := ⟨2, ![1024, 1]⟩
abbrev S1x256 : Shape := ⟨2, ![1, 256]⟩
abbrev S1024x256 : Shape := ⟨2, ![1024, 256]⟩
abbrev S64x128 : Shape := ⟨2, ![64, 128]⟩
abbrev S64x1 : Shape := ⟨2, ![64, 1]⟩
abbrev S1x128 : Shape := ⟨2, ![1, 128]⟩
abbrev S64x256 : Shape := ⟨2, ![64, 256]⟩
abbrev S64x1x256 : Shape := ⟨3, ![64, 1, 256]⟩
abbrev S64x128x1 : Shape := ⟨3, ![64, 128, 1]⟩
abbrev S64x128x256 : Shape := ⟨3, ![64, 128, 256]⟩
abbrev S1x1x256 : Shape := ⟨3, ![1, 1, 256]⟩
abbrev S16x64x256 : Shape := ⟨3, ![16, 64, 256]⟩

abbrev nBuf : Space → Nat
  | .hbm => 15
  | .vmem => 14
  | .smem => 0
  | _ => 0

abbrev bufTy : (tb : Table) → Fin (tcTables nBuf tb) → BufTy
  | .hbm, ⟨0, _⟩ => ⟨S16x64x1x640, .f32⟩
  | .hbm, ⟨1, _⟩ => ⟨S16x64x1x1, .f32⟩
  | .hbm, ⟨2, _⟩ => ⟨S16x64x1x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S1x640, .f32⟩
  | .hbm, ⟨7, _⟩ => ⟨S1024x640, .f32⟩
  | .hbm, ⟨8, _⟩ => ⟨S1024x1, .f32⟩
  | .hbm, ⟨9, _⟩ => ⟨S1024x1, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1024x256, .f32⟩
  | .hbm, ⟨14, _⟩ => ⟨S16x64x256, .f32⟩
  | .local _ .vmem, ⟨0, _⟩ => ⟨S64x128, .f32⟩
  | .local _ .vmem, ⟨1, _⟩ => ⟨S64x128, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | _, _ => ⟨S16x64x1x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16x64x1x640_S1024x640 : S16x64x1x640.ShapeCasts S1024x640
  shapeCasts_S16x64x1x1_S1024x1 : S16x64x1x1.ShapeCasts S1024x1
  shapeCasts_S256x1_S1x256 : S256x1.ShapeCasts S1x256
  inb_S64x256_S64x256_0_0 : ∀ a, (![0, 0] : Fin 2 → Nat) a + S64x256.size a ≤ S64x256.size a
  h_S64x256 : 0 < S64x256.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  broadcasts_S64x1_S64x256 : S64x1.Broadcasts S64x256
  shapeCasts_S64x256_S64x256 : S64x256.ShapeCasts S64x256
  inb_S1x128_S1x128_0_0 : ∀ a, (![0, 0] : Fin 2 → Nat) a + S1x128.size a ≤ S1x128.size a
  h_S1x128 : 0 < S1x128.numel
  broadcasts_S1x128_S64x128 : S1x128.Broadcasts S64x128
  broadcasts_S64x1_S64x128 : S64x1.Broadcasts S64x128
  shapeCasts_S64x256_S64x1x256 : S64x256.ShapeCasts S64x1x256
  shapeCasts_S64x128_S64x128x1 : S64x128.ShapeCasts S64x128x1
  broadcasts_S64x1x256_S64x128x256 : S64x1x256.Broadcasts S64x128x256
  broadcasts_S64x128x1_S64x128x256 : S64x128x1.Broadcasts S64x128x256
  shapeCasts_S1x256_S1x1x256 : S1x256.ShapeCasts S1x1x256
  broadcasts_S1x1x256_S64x128x256 : S1x1x256.Broadcasts S64x128x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x128x256_S64x256 : S64x128x256.Reduces [1] S64x256
  shapeCasts_S1024x256_S16x64x256 : S1024x256.ShapeCasts S16x64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x640.size a
  hwx0_0 : ∀ i : grid0.Coords, EltTy.bits .f32 = 32 ∨ (Rect.block (s := S1024x640) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S1024x1.size a
  hwx0_1 : ∀ i : grid0.Coords, EltTy.bits .f32 = 32 ∨ (Rect.block (s := S1024x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S1024x1.size a
  hwx0_2 : ∀ i : grid0.Coords, EltTy.bits .f32 = 32 ∨ (Rect.block (s := S1024x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x640.size a
  hwx0_3 : ∀ i : grid0.Coords, EltTy.bits .f32 = 32 ∨ (Rect.block (s := S1x640) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S1024x256.size a
  hwx0_7 : ∀ i : grid0.Coords, EltTy.bits .f32 = 32 ∨ (Rect.block (s := S1024x256) S64x256.size (cc0_transform_7 i) (hinb0_7 i)).WholeWords (EltTy.packing .f32)

variable [Facts₀]

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x64x1x640 : Shape := ⟨4, ![16, 64, 1, 640]⟩
abbrev S16x64x1x1 : Shape := ⟨4, ![16, 64, 1, 1]⟩
abbrev S256x1 : Shape := ⟨2, ![256, 1]⟩
abbrev S1x640 : Shape := ⟨2, ![1, 640]⟩
abbrev S_ : Shape := ⟨0, ![]⟩
abbrev S1x1x1x640 : Shape := ⟨4, ![1, 1, 1, 640]⟩
abbrev S1x1x256x1 : Shape := ⟨4, ![1, 1, 256, 1]⟩
abbrev S16x64x256x1 : Shape := ⟨4, ![16, 64, 256, 1]⟩
abbrev S16x64x256x640 : Shape := ⟨4, ![16, 64, 256, 640]⟩
abbrev S16x64x256 : Shape := ⟨3, ![16, 64, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x64x1x640, .f32⟩
  | .hbm, ⟨1, _⟩ => ⟨S16x64x1x1, .f32⟩
  | .hbm, ⟨2, _⟩ => ⟨S16x64x1x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S1x640, .f32⟩
  | .hbm, ⟨7, _⟩ => ⟨S_, .f32⟩
  | .hbm, ⟨8, _⟩ => ⟨S16x64x1x1, .f32⟩
  | .hbm, ⟨9, _⟩ => ⟨S16x64x1x1, .f32⟩
  | .hbm, ⟨10, _⟩ => ⟨S_, .f32⟩
  | .hbm, ⟨11, _⟩ => ⟨S16x64x1x1, .f32⟩
  | .hbm, ⟨12, _⟩ => ⟨S16x64x1x1, .f32⟩
  | .hbm, ⟨13, _⟩ => ⟨S16x64x1x1, .f32⟩
  | .hbm, ⟨14, _⟩ => ⟨S1x1x1x640, .f32⟩
  | .hbm, ⟨15, _⟩ => ⟨S16x64x1x640, .f32⟩
  | .hbm, ⟨16, _⟩ => ⟨S16x64x1x640, .f32⟩
  | .hbm, ⟨17, _⟩ => ⟨S16x64x1x640, .f32⟩
  | .hbm, ⟨18, _⟩ => ⟨S1x1x256x1, .f32⟩
  | .hbm, ⟨19, _⟩ => ⟨S16x64x256x1, .f32⟩
  | .hbm, ⟨20, _⟩ => ⟨S16x64x256x1, .f32⟩
  | .hbm, ⟨21, _⟩ => ⟨S16x64x256x1, .f32⟩
  | .hbm, ⟨22, _⟩ => ⟨S16x64x256x640, .f32⟩
  | .hbm, ⟨23, _⟩ => ⟨S16x64x256x640, .f32⟩
  | .hbm, ⟨24, _⟩ => ⟨S16x64x256x640, .f32⟩
  | .hbm, ⟨25, _⟩ => ⟨S1x1x256x1, .f32⟩
  | .hbm, ⟨26, _⟩ => ⟨S16x64x256x640, .f32⟩
  | .hbm, ⟨27, _⟩ => ⟨S16x64x256x640, .f32⟩
  | .hbm, ⟨28, _⟩ => ⟨S16x64x256x640, .f32⟩
  | .hbm, ⟨29, _⟩ => ⟨S1x1x256x1, .f32⟩
  | .hbm, ⟨30, _⟩ => ⟨S16x64x256x640, .f32⟩
  | .hbm, ⟨31, _⟩ => ⟨S16x64x256x640, .f32⟩
  | .hbm, ⟨32, _⟩ => ⟨S16x64x256x640, .f32⟩
  | .hbm, ⟨33, _⟩ => ⟨S16x64x256x640, .f32⟩
  | .hbm, ⟨34, _⟩ => ⟨S_, .f32⟩
  | .hbm, ⟨35, _⟩ => ⟨S16x64x256, .f32⟩
  | _, _ => ⟨S16x64x1x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S16x64x1x1 : S_.BroadcastsInDim S16x64x1x1 (![] : Fin 0 → Fin S16x64x1x1.rank)
  bcast_S1x640_S1x1x1x640_2_3 : S1x640.BroadcastsInDim S1x1x1x640 (![2, 3] : Fin 2 → Fin S1x1x1x640.rank)
  bcast_S1x1x1x640_S16x64x1x640_0_1_2_3 : S1x1x1x640.BroadcastsInDim S16x64x1x640 (![0, 1, 2, 3] : Fin 4 → Fin S16x64x1x640.rank)
  bcast_S16x64x1x1_S16x64x1x640_0_1_2_3 : S16x64x1x1.BroadcastsInDim S16x64x1x640 (![0, 1, 2, 3] : Fin 4 → Fin S16x64x1x640.rank)
  bcast_S256x1_S1x1x256x1_2_3 : S256x1.BroadcastsInDim S1x1x256x1 (![2, 3] : Fin 2 → Fin S1x1x256x1.rank)
  bcast_S1x1x256x1_S16x64x256x1_0_1_2_3 : S1x1x256x1.BroadcastsInDim S16x64x256x1 (![0, 1, 2, 3] : Fin 4 → Fin S16x64x256x1.rank)
  bcast_S16x64x1x1_S16x64x256x1_0_1_2_3 : S16x64x1x1.BroadcastsInDim S16x64x256x1 (![0, 1, 2, 3] : Fin 4 → Fin S16x64x256x1.rank)
  bcast_S16x64x256x1_S16x64x256x640_0_1_2_3 : S16x64x256x1.BroadcastsInDim S16x64x256x640 (![0, 1, 2, 3] : Fin 4 → Fin S16x64x256x640.rank)
  bcast_S16x64x1x640_S16x64x256x640_0_1_2_3 : S16x64x1x640.BroadcastsInDim S16x64x256x640 (![0, 1, 2, 3] : Fin 4 → Fin S16x64x256x640.rank)
  bcast_S1x1x256x1_S16x64x256x640_0_1_2_3 : S1x1x256x1.BroadcastsInDim S16x64x256x640 (![0, 1, 2, 3] : Fin 4 → Fin S16x64x256x640.rank)
  reducesTo_S16x64x256x640_S16x64x256_d3 : S16x64x256x640.ReducesTo [3] S16x64x256
  h_S_ : 0 < S_.numel

variable [Facts₀]

class Facts : Prop extends Facts₀ where

variable [Facts]
-- ==== Proof.CaseValues.lean ====
/-
  What each control case of the kernel body leaves behind, as a pure function of what it loaded.

  The body has two cases. At the first time tile of a row tile it stores zeros into the output block, computes the
  per-row angular frequencies into the carried scratch, reads both back and stores the first partial sum added to the
  zeros. At a later time tile it stores the previous output block plus this tile's partial sum, and leaves the scratch
  as it was. Each store covers its whole buffer, so what a buffer holds afterwards is the last store's value.
-/
import proofs.«107737_j76433238000020_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.CaseValues

open Cert.KernelIdeal Cert.KernelIdeal.Gen

variable {F : FTy → Type} [FloatOps F]

theorem hz : (![0, 0] : Fin 2 → Nat) = fun _ => 0 := funext fun a => by fin_cases a <;> rfl

/-- A later time tile: the output block ends at the block found there plus the tile's partial sum, computed from the
    scratch found there. -/
theorem out_later (c : Dev nD) (i : grid0.Coords) (arg2 : Memref sig .tc .vmem S64x128 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S64x256 .f32) (harg9 : arg9.IsWhole) (arg10 : Memref sig .tc .vmem S64x256 .f32) (harg10 : arg10.IsWhole) (hc0 : ¬cond0_0 i)
    (x0 : Vec F S64x128 .f32) (x1 : Vec F S64x1 .f32) (x2 : Vec F S64x1 .f32) (x3 : Vec F S1x128 .f32) (x4 : Vec F S1x256 .f32) (x5 : Vec F S1x256 .f32) (x6 : Vec F S1x256 .f32) (xo7 xs0 : Vec F S64x256 .f32) :
    out0_B_7 c i arg2 harg2 arg3 harg3 arg4 harg4 arg5 harg5 arg6 harg6 arg7 harg7 arg8 harg8 arg9 harg9 arg10 harg10 hc0 x0 x1 x2 x3 x4 x5 x6 xo7 xs0 = k0_pay3 xs0 x3 x2 x5 x4 x0 xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xo7 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S64x256) hz, View.ld_unit_zero (S := S1x128) hz, View.ld_unit_zero (S := S64x1) hz, View.ld_unit_zero (S := S1x256) hz, View.ld_unit_zero (S := S64x128) hz]

/-- The first time tile: the scratch ends at the angular frequencies of the tile's rows. -/
theorem scratch_first (c : Dev nD) (i : grid0.Coords) (arg2 : Memref sig .tc .vmem S64x128 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S64x256 .f32) (harg9 : arg9.IsWhole) (arg10 : Memref sig .tc .vmem S64x256 .f32) (harg10 : arg10.IsWhole) (hc0 : cond0_0 i)
    (x0 : Vec F S64x128 .f32) (x1 : Vec F S64x1 .f32) (x2 : Vec F S64x1 .f32) (x3 : Vec F S1x128 .f32) (x4 : Vec F S1x256 .f32) (x5 : Vec F S1x256 .f32) (x6 : Vec F S1x256 .f32) :
    sout0_A_0 c i arg2 harg2 arg3 harg3 arg4 harg4 arg5 harg5 arg6 harg6 arg7 harg7 arg8 harg8 arg9 harg9 arg10 harg10 hc0 x0 x1 x2 x3 x4 x5 x6 = k0_pay2 x1 x6 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S64x256) hz, View.ld_unit_zero (S := S1x128) hz, View.ld_unit_zero (S := S64x1) hz, View.ld_unit_zero (S := S1x256) hz, View.ld_unit_zero (S := S64x128) hz]

/-- The first time tile: the output block ends at zeros plus the tile's partial sum, computed from the scratch just
    written. -/
theorem out_first (c : Dev nD) (i : grid0.Coords) (arg2 : Memref sig .tc .vmem S64x128 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S64x256 .f32) (harg9 : arg9.IsWhole) (arg10 : Memref sig .tc .vmem S64x256 .f32) (harg10 : arg10.IsWhole) (hc0 : cond0_0 i)
    (x0 : Vec F S64x128 .f32) (x1 : Vec F S64x1 .f32) (x2 : Vec F S64x1 .f32) (x3 : Vec F S1x128 .f32) (x4 : Vec F S1x256 .f32) (x5 : Vec F S1x256 .f32) (x6 : Vec F S1x256 .f32) :
    out0_A_7 c i arg2 harg2 arg3 harg3 arg4 harg4 arg5 harg5 arg6 harg6 arg7 harg7 arg8 harg8 arg9 harg9 arg10 harg10 hc0 x0 x1 x2 x3 x4 x5 x6 = k0_pay3 (k0_pay2 x1 x6) x3 x2 x5 x4 x0 k0_pay1 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S64x256) hz]
  simp only [View.readCov_unit_zero (S := S64x256) _ hz, View.readAt_eq_ld, harg2.read_unread, harg3.read_unread, harg4.read_unread, harg5.read_unread, harg6.read_unread, harg7.read_unread, harg8.read_unread, harg9.read_unread, harg10.read_unread, View.ld_unit_zero (S := S64x256) hz, View.ld_unit_zero (S := S1x128) hz, View.ld_unit_zero (S := S64x1) hz, View.ld_unit_zero (S := S1x256) hz, View.ld_unit_zero (S := S64x128) hz]

end Cert.KernelIdeal.CaseValues

end
-- ==== Proof.SineSum.lean ====
/-
  The function both programs compute, and the one law that joins their two arrangements of it.

  For a row (s, b) of the 16 x 64 rows and a channel d of the 256, the result is the sum over the 640 sample times k of
      (a_d * sin ((w_d * exp (nlf_sb * c1 + c0)) * (t_k - tau_sb) + phi_d)) * x_sbk ,
  started from the zero word. One program adds the 640 summands in one sum; the other adds them 128 at a time, five
  stretches one after the other into a running total that starts at zero. Addition on the extended reals is commutative
  and associative with no side condition, so the two totals are equal whatever the inputs are (no finiteness is used).
-/
import Idealize.ShloMosaic.PureOps.Ideal
import Idealize.ShloMosaic.PureOps.Ideal.Laws
import Idealize.ShloMosaic.Lib.ValueIdx
import Mathlib.Algebra.BigOperators.Fin

noncomputable section

open Idealize.ShloMosaic Idealize.ShloMosaic.ValueIdx

namespace Cert.SineSum

open Finset

/-- The angular frequency of channel `w` on a row whose normalized log-frequency is `nlf`: w * exp (nlf * c1 + c0). -/
def freq (nlf w : EReal) : EReal :=
  w * Ideal.exp (nlf * Ideal.ofBits .f32 0x3EBF1F9B#32 + Ideal.ofBits .f32 0x40A0D96A#32)

/-- One summand from an angular frequency `f`: (a * sin (f * (t - tau) + phi)) * x. -/
def wave (f tau a phi x t : EReal) : EReal := (a * Ideal.sin (f * (t - tau) + phi)) * x

/-- One summand from the row's and the channel's parameters. -/
def summand (nlf tau a phi w x t : EReal) : EReal := wave (freq nlf w) tau a phi x t

/-- A natural number as a sample time's index (the numbers below 640 are themselves). -/
def wrap (k : ℕ) : Fin 640 := ⟨k % 640, Nat.mod_lt k (by decide)⟩

theorem wrap_fin (k : Fin 640) : wrap k.val = k := Fin.ext (Nat.mod_eq_of_lt k.isLt)

theorem wrap_of_lt {k : ℕ} (h : k < 640) : wrap k = ⟨k, h⟩ := Fin.ext (Nat.mod_eq_of_lt h)

variable (x0 : (⟨4, ![16, 64, 1, 640]⟩ : Shape).Idx → EReal) (x1 x2 : (⟨4, ![16, 64, 1, 1]⟩ : Shape).Idx → EReal)
  (x3 x4 x5 : (⟨2, ![256, 1]⟩ : Shape).Idx → EReal) (x6 : (⟨2, ![1, 640]⟩ : Shape).Idx → EReal)

/-- The summands of row (s, b) and channel d, listed by sample time: x0 the samples, x1 the log-frequencies, x2 the
    delays, x3 the amplitudes, x4 the phases, x5 the channel multipliers, x6 the sample times. -/
def rowTerm (s : Fin 16) (b : Fin 64) (d : Fin 256) (k : ℕ) : EReal :=
  summand (x1 (ix4 s b 0 0)) (x2 (ix4 s b 0 0)) (x3 (ix2 d 0)) (x4 (ix2 d 0)) (x5 (ix2 d 0))
    (x0 (ix4 s b 0 (wrap k))) (x6 (ix2 0 (wrap k)))

/-- The result array: entry (s, b, d) is the sum of that row's and channel's 640 summands. -/
def total (i : (⟨3, ![16, 64, 256]⟩ : Shape).Idx) : EReal :=
  ∑ k ∈ range 640, rowTerm x0 x1 x2 x3 x4 x5 x6 (i 0) (i 1) (i 2) k

/-- The one-sum arrangement: the zero word plus the sum over the 640 sample times is the total. -/
theorem zero_add_sum_eq_total (i : (⟨3, ![16, 64, 256]⟩ : Shape).Idx) :
    Ideal.ofBits .f32 0x00000000#32 + ∑ k : Fin 640, summand (x1 (ix4 (i 0) (i 1) 0 0)) (x2 (ix4 (i 0) (i 1) 0 0))
        (x3 (ix2 (i 2) 0)) (x4 (ix2 (i 2) 0)) (x5 (ix2 (i 2) 0)) (x0 (ix4 (i 0) (i 1) 0 k)) (x6 (ix2 0 k))
      = total x0 x1 x2 x3 x4 x5 x6 i := by
  rw [Ideal.ofBits_zero_f32, zero_add]
  unfold total
  rw [← Fin.sum_univ_eq_sum_range (fun k => rowTerm x0 x1 x2 x3 x4 x5 x6 (i 0) (i 1) (i 2) k) 640]
  refine Finset.sum_congr rfl fun k _ => ?_
  unfold rowTerm
  rw [wrap_fin]

/-- The stretch-by-stretch arrangement, first stretch: the zero word plus the first 128 summands. -/
theorem first_stretch (g : ℕ → EReal) :
    Ideal.ofBits .f32 0x00000000#32 + ∑ k : Fin 128, g k.val = ∑ k ∈ range (128 * (0 + 1)), g k := by
  rw [Ideal.ofBits_zero_f32, zero_add, Fin.sum_univ_eq_sum_range g 128]

/-- A later stretch: the running total of the first j stretches plus the next 128 summands is the running total of j + 1. -/
theorem next_stretch (g : ℕ → EReal) (j : ℕ) :
    ∑ k ∈ range (128 * j), g k + ∑ k : Fin 128, g (128 * j + k.val) = ∑ k ∈ range (128 * (j + 1)), g k := by
  rw [Fin.sum_univ_eq_sum_range (fun k => g (128 * j + k)) 128, Nat.mul_succ, Finset.sum_range_add]

end Cert.SineSum

end
-- ==== Proof.BlockLayout.lean ====
/-
  Three layout chains of a rank-3 block read at explicit coordinates.

  A matrix is given a unit axis and then repeated along it: [a, c] as [a, 1, c] over the b positions of the middle axis,
  [a, b] as [a, b, 1] over the c positions of the last axis, and one row [1, c] as [1, 1, c] over all a * b leading
  positions. In each chain the cast keeps the row-major position and the broadcast reads coordinate 0 on a unit axis, so
  entry (p, q, r) of the result is the matrix entry named by the coordinates that survive.
-/
import Idealize.ShloMosaic.Lib.Pipeline.Value
import Idealize.ShloMosaic.Lib.ValueIdx

namespace Cert.BlockLayout

open Idealize.ShloMosaic Idealize.ShloMosaic.ValueIdx

variable {α : Type}

/-- [a, c] cast to [a, 1, c] and repeated along the middle axis: entry (p, q, r) is the matrix entry (p, r). -/
theorem repeat_middle {a b c : ℕ} (v : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (r : Fin c) :
    broadcastTo ⟨3, ![a, b, c]⟩ (shapeCast ⟨3, ![a, 1, c]⟩ v h1) h2 (ix3 p q r) = v (ix2 p r) := by
  refine (broadcastTo_apply _ h2 (ix3 p q r) (ix3 p (0 : Fin 1) r) fun ax => ?_).trans ?_
  · match ax with
    | ⟨0, _⟩ =>
      show p.val = if a = 1 then 0 else p.val
      split
      · have := p.isLt; omega
      · rfl
    | ⟨1, _⟩ => rfl
    | ⟨2, _⟩ =>
      show r.val = if c = 1 then 0 else r.val
      split
      · have := r.isLt; omega
      · rfl
  · refine shapeCast_apply v h1 _ _ ?_
    rw [Shape.rowMajor_val_three, Shape.rowMajor_val_two]
    show p.val * c + r.val = (p.val * 1 + 0) * c + r.val
    rw [Nat.mul_one, Nat.add_zero]

/-- [a, b] cast to [a, b, 1] and repeated along the last axis: entry (p, q, r) is the matrix entry (p, q). -/
theorem repeat_last {a b c : ℕ} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (r : Fin c) :
    broadcastTo ⟨3, ![a, b, c]⟩ (shapeCast ⟨3, ![a, b, 1]⟩ v h1) h2 (ix3 p q r) = v (ix2 p q) := by
  refine (broadcastTo_apply _ h2 (ix3 p q r) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply v h1 _ _ ?_
    rw [Shape.rowMajor_val_three, Shape.rowMajor_val_two]
    show p.val * b + q.val = (p.val * b + q.val) * 1 + 0
    rw [Nat.mul_one, Nat.add_zero]

/-- One row [1, c] cast to [1, 1, c] and repeated over both leading axes: entry (p, q, r) is the row's entry r. -/
theorem repeat_row {a b c : ℕ} (v : (⟨2, ![1, c]⟩ : Shape).Idx → α)
    (h1 : (⟨2, ![1, c]⟩ : Shape).ShapeCasts ⟨3, ![1, 1, c]⟩) (h2 : (⟨3, ![1, 1, c]⟩ : Shape).Broadcasts ⟨3, ![a, b, c]⟩)
    (p : Fin a) (q : Fin b) (r : Fin c) :
    broadcastTo ⟨3, ![a, b, c]⟩ (shapeCast ⟨3, ![1, 1, c]⟩ v h1) h2 (ix3 p q r) = v (ix2 (0 : Fin 1) r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 _ _ ?_
    rw [Shape.rowMajor_val_three, Shape.rowMajor_val_two]
    show 0 * c + r.val = (0 * 1 + 0) * c + r.val
    simp only [Nat.zero_mul, Nat.zero_add, Nat.add_zero]

end Cert.BlockLayout
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payload.lean ====
/-
  The kernel body's stored values read entry by entry, on the extended reals.

  The value stored into the scratch at a row tile's first time tile is, at row b and channel d, the angular frequency
  w_d * exp (nlf_b * c1 + c0). The value stored into the output block is, at (b, d), the block found there plus the sum
  over the tile's 128 sample times k of (a_d * sin (f_bd * (t_k - tau_b) + phi_d)) * x_bk, where f is the scratch: the
  rank-3 intermediate is built from matrices repeated along the axis they lack, and the reduction over the middle axis
  is the finite sum over that axis' coordinate.
-/
import proofs.«107737_j76433238000020_2_alg».proof.Proof.Gen.KernelIdeal.Skeleton
import proofs.«107737_j76433238000020_2_alg».proof.Proof.SineSum
import proofs.«107737_j76433238000020_2_alg».proof.Proof.BlockLayout
import proofs.«107737_j76433238000020_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.SineSum Cert.BlockLayout

/-- The zero block: every entry is the zero word. -/
theorem zeros_apply (j : S64x256.Idx) : k0_pay1 (F := Ideal) j = Ideal.ofBits .f32 0x00000000#32 := rfl

/-- The scratch's stored value at row b, channel d: the channel's multiplier times the exponential of the row's
    rescaled log-frequency. -/
theorem freq_apply (v38 : FVec Ideal S64x1 .f32) (v45 : FVec Ideal S1x256 .f32) (b : Fin 64) (d : Fin 256) :
    k0_pay2 (F := Ideal) v38 v45 (ix2 b d) = freq (v38 (ix2 b (0 : Fin 1))) (v45 (ix2 (0 : Fin 1) d)) := by
  unfold k0_pay2 freq
  rw [shapeCast_self, shapeCast_self, shapeCast_self]
  show broadcastTo S64x256 v45 broadcasts_S1x256_S64x256 (ix2 b d)
      * broadcastTo S64x256 (exp (addf (mulf v38 (broadcast S64x1 (Scalar.ofBits .f32 0x3EBF1F9B#32)))
          (broadcast S64x1 (Scalar.ofBits .f32 0x40A0D96A#32)))) broadcasts_S64x1_S64x256 (ix2 b d) = _
  rw [broadcastTo_1b_ab_apply, broadcastTo_a1_ab_apply]
  rfl

/-- The rank-3 intermediate whose middle axis the body sums away: entry (b, k, d) is one summand. -/
def terms (v3 : FVec Ideal S64x256 .f32) (v4 : FVec Ideal S1x128 .f32) (v5 : FVec Ideal S64x1 .f32)
    (v15 v20 : FVec Ideal S1x256 .f32) (v26 : FVec Ideal S64x128 .f32) : FVec Ideal S64x128x256 .f32 :=
  mulf (mulf (broadcastTo S64x128x256 (shapeCast S1x1x256 (shapeCast S1x256 v20 shapeCasts_S1x256_S1x256) shapeCasts_S1x256_S1x1x256) broadcasts_S1x1x256_S64x128x256)
      (sin (addf (mulf (broadcastTo S64x128x256 (shapeCast S64x1x256 v3 shapeCasts_S64x256_S64x1x256) broadcasts_S64x1x256_S64x128x256)
          (broadcastTo S64x128x256 (shapeCast S64x128x1 (subf (broadcastTo S64x128 v4 broadcasts_S1x128_S64x128)
            (broadcastTo S64x128 (shapeCast S64x1 v5 shapeCasts_S64x1_S64x1) broadcasts_S64x1_S64x128)) shapeCasts_S64x128_S64x128x1) broadcasts_S64x128x1_S64x128x256))
        (broadcastTo S64x128x256 (shapeCast S1x1x256 (shapeCast S1x256 v15 shapeCasts_S1x256_S1x256) shapeCasts_S1x256_S1x1x256) broadcasts_S1x1x256_S64x128x256))))
    (broadcastTo S64x128x256 (shapeCast S64x128x1 (shapeCast S64x128 v26 shapeCasts_S64x128_S64x128) shapeCasts_S64x128_S64x128x1) broadcasts_S64x128x1_S64x128x256)

/-- Entry (b, k, d) of the intermediate is the summand of row b, sample time k, channel d. -/
theorem terms_apply (v3 : FVec Ideal S64x256 .f32) (v4 : FVec Ideal S1x128 .f32) (v5 : FVec Ideal S64x1 .f32)
    (v15 v20 : FVec Ideal S1x256 .f32) (v26 : FVec Ideal S64x128 .f32) (b : Fin 64) (k : Fin 128) (d : Fin 256) :
    terms v3 v4 v5 v15 v20 v26 (ix3 b k d)
      = wave (v3 (ix2 b d)) (v5 (ix2 b (0 : Fin 1))) (v20 (ix2 (0 : Fin 1) d)) (v15 (ix2 (0 : Fin 1) d)) (v26 (ix2 b k))
          (v4 (ix2 (0 : Fin 1) k)) := by
  unfold terms wave
  rw [shapeCast_self v20, shapeCast_self v15, shapeCast_self v5, shapeCast_self v26]
  show broadcastTo S64x128x256 (shapeCast S1x1x256 v20 shapeCasts_S1x256_S1x1x256) broadcasts_S1x1x256_S64x128x256 (ix3 b k d)
      * Ideal.sin (broadcastTo S64x128x256 (shapeCast S64x1x256 v3 shapeCasts_S64x256_S64x1x256) broadcasts_S64x1x256_S64x128x256 (ix3 b k d)
          * broadcastTo S64x128x256 (shapeCast S64x128x1 (subf (broadcastTo S64x128 v4 broadcasts_S1x128_S64x128)
              (broadcastTo S64x128 v5 broadcasts_S64x1_S64x128)) shapeCasts_S64x128_S64x128x1) broadcasts_S64x128x1_S64x128x256 (ix3 b k d)
          + broadcastTo S64x128x256 (shapeCast S1x1x256 v15 shapeCasts_S1x256_S1x1x256) broadcasts_S1x1x256_S64x128x256 (ix3 b k d))
      * broadcastTo S64x128x256 (shapeCast S64x128x1 v26 shapeCasts_S64x128_S64x128x1) broadcasts_S64x128x1_S64x128x256 (ix3 b k d) = _
  rw [repeat_row v20, repeat_row v15, repeat_middle v3, repeat_last v26, repeat_last]
  show _ * Ideal.sin (_ * (broadcastTo S64x128 v4 broadcasts_S1x128_S64x128 (ix2 b k)
      - broadcastTo S64x128 v5 broadcasts_S64x1_S64x128 (ix2 b k)) + _) * _ = _
  rw [broadcastTo_1b_ab_apply, broadcastTo_a1_ab_apply]

/-- The index the reduction over the middle axis reads at position k of entry (b, d). -/
theorem lift_eq (b : Fin 64) (k : Fin 128) (d : Fin 256) :
    reduces_S64x128x256_S64x256.lift (ix2 b d) k = ix3 b k d :=
  funext fun a => Fin.ext (by match a with | ⟨0, _⟩ => rfl | ⟨1, _⟩ => rfl | ⟨2, _⟩ => rfl)

/-- The output block's stored value at row b, channel d: what was there plus the tile's 128 summands. -/
theorem out_apply (v3 : FVec Ideal S64x256 .f32) (v4 : FVec Ideal S1x128 .f32) (v5 : FVec Ideal S64x1 .f32)
    (v15 v20 : FVec Ideal S1x256 .f32) (v26 : FVec Ideal S64x128 .f32) (v32 : FVec Ideal S64x256 .f32) (b : Fin 64) (d : Fin 256) :
    k0_pay3 (F := Ideal) v3 v4 v5 v15 v20 v26 v32 (ix2 b d)
      = v32 (ix2 b d) + ∑ k : Fin 128, wave (v3 (ix2 b d)) (v5 (ix2 b (0 : Fin 1))) (v20 (ix2 (0 : Fin 1) d))
          (v15 (ix2 (0 : Fin 1) d)) (v26 (ix2 b k)) (v4 (ix2 (0 : Fin 1) k)) := by
  show shapeCast S64x256 v32 shapeCasts_S64x256_S64x256 (ix2 b d)
      + multiReduction .add [1] S64x256 (terms v3 v4 v5 v15 v20 v26) 0x00000000#32 reduces_S64x128x256_S64x256 (.inl rfl) rfl (ix2 b d) = _
  rw [shapeCast_self]
  refine congrArg (v32 (ix2 b d) + ·) ?_
  refine (Ideal.multiReduction_add_single (terms v3 v4 v5 v15 v20 v26) 0x00000000#32 reduces_S64x128x256_S64x256 (.inl rfl) rfl (ix2 b d)).trans ?_
  refine Finset.sum_congr rfl fun k _ => ?_
  exact (congrArg (terms v3 v4 v5 v15 v20 v26) (lift_eq b k d)).trans (terms_apply v3 v4 v5 v15 v20 v26 b k d)

end Cert.KernelIdeal.Payload

end
-- ==== Proof.Blocks.lean ====
/-
  The kernel's input blocks, read at coordinates.

  The grid has 16 x 5 = 80 points; point t works on row-tile s = t / 5 and time-tile j = t % 5. A block's coordinate
  inside its array is always (the block's index) x (the block's extent) + (the coordinate inside the block), axis by
  axis. Three of the arrays are reshapes of the arguments that keep the row-major order of the entries, so an entry of
  the reshaped array is the argument's entry at the same row-major position:
    [16, 64, 1, 640] at (s, b, 0, q) is position (s * 64 + b) * 640 + q, which is [1024, 640] at (s * 64 + b, q);
    [16, 64, 1, 1] at (s, b, 0, 0) is position s * 64 + b, which is [1024, 1] at (s * 64 + b, 0);
    [256, 1] at (d, 0) is position d, which is [1, 256] at (0, d).
-/
import proofs.«107737_j76433238000020_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F] (m : (ℓ : Loc nD τ sig) → Buf (Elt F) ℓ)

/-! ## Where each window's block sits at point t -/

/-- The samples' window: block (t / 5, t % 5). -/
theorem idx0 : ∀ t : Fin cfg0.N, win0_0.index t (0 : Fin 2) = t.val / 5 ∧ win0_0.index t (1 : Fin 2) = t.val % 5 :=
  (by decide +kernel : ∀ t : Fin grid0.N, win0_0.index t (0 : Fin 2) = t.val / 5 ∧ win0_0.index t (1 : Fin 2) = t.val % 5)
/-- The log-frequencies' window: block (t / 5, 0). -/
theorem idx1 : ∀ t : Fin cfg0.N, win0_1.index t (0 : Fin 2) = t.val / 5 ∧ win0_1.index t (1 : Fin 2) = 0 :=
  (by decide +kernel : ∀ t : Fin grid0.N, win0_1.index t (0 : Fin 2) = t.val / 5 ∧ win0_1.index t (1 : Fin 2) = 0)
/-- The delays' window: block (t / 5, 0). -/
theorem idx2 : ∀ t : Fin cfg0.N, win0_2.index t (0 : Fin 2) = t.val / 5 ∧ win0_2.index t (1 : Fin 2) = 0 :=
  (by decide +kernel : ∀ t : Fin grid0.N, win0_2.index t (0 : Fin 2) = t.val / 5 ∧ win0_2.index t (1 : Fin 2) = 0)
/-- The sample times' window: block (0, t % 5). -/
theorem idx3 : ∀ t : Fin cfg0.N, win0_3.index t (0 : Fin 2) = 0 ∧ win0_3.index t (1 : Fin 2) = t.val % 5 :=
  (by decide +kernel : ∀ t : Fin grid0.N, win0_3.index t (0 : Fin 2) = 0 ∧ win0_3.index t (1 : Fin 2) = t.val % 5)
/-- The amplitudes' window: the one block (0, 0). -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- The phases' window: the one block (0, 0). -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The channel multipliers' window: the one block (0, 0). -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Point t's row-tile is one of the 16. -/
theorem row_lt (t : Fin cfg0.N) : t.val / 5 < 16 := by
  have h : cfg0.N = 80 := N_0
  have := t.isLt
  omega
/-- Sample time k of point t's time-tile is one of the 640. -/
theorem time_lt (t : Fin cfg0.N) (k : Fin 128) : 128 * (t.val % 5) + k.val < 640 := by
  have := k.isLt
  omega

/-! ## What the reshaped arrays hold when the region is entered -/

/-- The [1024, 640] array is the reshape of the samples. -/
theorem V_v0 (c : Dev nD) :
    (V m c main_v0 : S1024x640.Idx → Elt F .f32)
      = shapeCast S1024x640 (m ((c.tc : Thread nD τ).loc main_arg0)) shapeCasts_S16x64x1x640_S1024x640 := by
  show StableHlo.after hostOps0 (fun b => m (c, b)) (Proc.devRef .tc main_v0) = _
  after_results
  rfl
/-- The first [1024, 1] array is the reshape of the log-frequencies. -/
theorem V_v1 (c : Dev nD) :
    (V m c main_v1 : S1024x1.Idx → Elt F .f32)
      = shapeCast S1024x1 (m ((c.tc : Thread nD τ).loc main_arg1)) shapeCasts_S16x64x1x1_S1024x1 := by
  show StableHlo.after hostOps0 (fun b => m (c, b)) (Proc.devRef .tc main_v1) = _
  after_results
  rfl
/-- The second [1024, 1] array is the reshape of the delays. -/
theorem V_v2 (c : Dev nD) :
    (V m c main_v2 : S1024x1.Idx → Elt F .f32)
      = shapeCast S1024x1 (m ((c.tc : Thread nD τ).loc main_arg2)) shapeCasts_S16x64x1x1_S1024x1 := by
  show StableHlo.after hostOps0 (fun b => m (c, b)) (Proc.devRef .tc main_v2) = _
  after_results
  rfl
/-- The first [1, 256] array is the reshape of the amplitudes. -/
theorem V_v3 (c : Dev nD) :
    (V m c main_v3 : S1x256.Idx → Elt F .f32)
      = shapeCast S1x256 (m ((c.tc : Thread nD τ).loc main_arg3)) shapeCasts_S256x1_S1x256 := by
  show StableHlo.after hostOps0 (fun b => m (c, b)) (Proc.devRef .tc main_v3) = _
  after_results
  rfl
/-- The second [1, 256] array is the reshape of the phases. -/
theorem V_v4 (c : Dev nD) :
    (V m c main_v4 : S1x256.Idx → Elt F .f32)
      = shapeCast S1x256 (m ((c.tc : Thread nD τ).loc main_arg4)) shapeCasts_S256x1_S1x256 := by
  show StableHlo.after hostOps0 (fun b => m (c, b)) (Proc.devRef .tc main_v4) = _
  after_results
  rfl
/-- The third [1, 256] array is the reshape of the channel multipliers. -/
theorem V_v5 (c : Dev nD) :
    (V m c main_v5 : S1x256.Idx → Elt F .f32)
      = shapeCast S1x256 (m ((c.tc : Thread nD τ).loc main_arg5)) shapeCasts_S256x1_S1x256 := by
  show StableHlo.after hostOps0 (fun b => m (c, b)) (Proc.devRef .tc main_v5) = _
  after_results
  rfl

/-! ## The three reshapes at an index -/

/-- [16, 64, 1, 640] -> [1024, 640]: entry (s * 64 + b, q) is the argument's entry (s, b, 0, q). -/
theorem reshape_samples {α : Type} (x : S16x64x1x640.Idx → α) (j : S1024x640.Idx) (s : Fin 16) (b : Fin 64) (q : Fin 640)
    (h0 : (j 0).val = s.val * 64 + b.val) (h1 : (j 1).val = q.val) :
    shapeCast S1024x640 x shapeCasts_S16x64x1x640_S1024x640 j = x (ix4 s b 0 q) := by
  refine shapeCast_apply x _ j (ix4 s b 0 q) ?_
  rw [Shape.rowMajor_val_four, Shape.rowMajor_val_two]
  show ((s.val * 64 + b.val) * 1 + 0) * 640 + q.val = (j 0).val * 640 + (j 1).val
  rw [h0, h1]; omega

/-- [16, 64, 1, 1] -> [1024, 1]: entry (s * 64 + b, 0) is the argument's entry (s, b, 0, 0). -/
theorem reshape_rows {α : Type} (x : S16x64x1x1.Idx → α) (j : S1024x1.Idx) (s : Fin 16) (b : Fin 64)
    (h0 : (j 0).val = s.val * 64 + b.val) :
    shapeCast S1024x1 x shapeCasts_S16x64x1x1_S1024x1 j = x (ix4 s b 0 0) := by
  refine shapeCast_apply x _ j (ix4 s b 0 0) ?_
  rw [Shape.rowMajor_val_four, Shape.rowMajor_val_two]
  have h1 : (j 1).val < 1 := (j 1).isLt
  show ((s.val * 64 + b.val) * 1 + 0) * 1 + 0 = (j 0).val * 1 + (j 1).val
  rw [h0]; omega

/-- [256, 1] -> [1, 256]: entry (0, d) is the argument's entry (d, 0). -/
theorem reshape_channels {α : Type} (x : S256x1.Idx → α) (j : S1x256.Idx) (d : Fin 256)
    (h1 : (j 1).val = d.val) :
    shapeCast S1x256 x shapeCasts_S256x1_S1x256 j = x (ix2 d 0) := by
  refine shapeCast_apply x _ j (ix2 d 0) ?_
  rw [Shape.rowMajor_val_two, Shape.rowMajor_val_two]
  have h0 : (j 0).val < 1 := (j 0).isLt
  show d.val * 1 + 0 = (j 0).val * 256 + (j 1).val
  rw [h1]; omega

/-! ## The seven blocks, over a row-tile s and a sample time q given with their equations -/

/-- Sample (b, k) of point t's block is the sample of row (t / 5, b) at time 128 * (t % 5) + k. -/
theorem sample_block_of (c : Dev nD) (t : Fin cfg0.N) (b : Fin 64) (k : Fin 128)
    (s : Fin 16) (hs : s.val = t.val / 5) (q : Fin 640) (hq : q.val = 128 * (t.val % 5) + k.val) :
    (iblk m c 0 t : Vec F S64x128 .f32) (ix2 b k) = m ((c.tc : Thread nD τ).loc main_arg0) (ix4 s b 0 q) := by
  unfold iblk
  rw [View.read_apply]
  show V m c main_v0 _ = _
  rw [V_v0]
  refine reshape_samples _ _ s b q ?_ ?_
  · show win0_0.index t 0 * 64 + 1 * b.val = s.val * 64 + b.val
    rw [(idx0 t).1, hs]; omega
  · show win0_0.index t 1 * 128 + 1 * k.val = q.val
    rw [(idx0 t).2, hq]; omega

/-- Entry (b, 0) of point t's log-frequency block is the log-frequency of row (t / 5, b). -/
theorem logfreq_block_of (c : Dev nD) (t : Fin cfg0.N) (b : Fin 64) (s : Fin 16) (hs : s.val = t.val / 5) :
    (iblk m c 1 t : Vec F S64x1 .f32) (ix2 b 0) = m ((c.tc : Thread nD τ).loc main_arg1) (ix4 s b 0 0) := by
  unfold iblk
  rw [View.read_apply]
  show V m c main_v1 _ = _
  rw [V_v1]
  refine reshape_rows _ _ s b ?_
  show win0_1.index t 0 * 64 + 1 * b.val = s.val * 64 + b.val
  rw [(idx1 t).1, hs]; omega

/-- Entry (b, 0) of point t's delay block is the delay of row (t / 5, b). -/
theorem delay_block_of (c : Dev nD) (t : Fin cfg0.N) (b : Fin 64) (s : Fin 16) (hs : s.val = t.val / 5) :
    (iblk m c 2 t : Vec F S64x1 .f32) (ix2 b 0) = m ((c.tc : Thread nD τ).loc main_arg2) (ix4 s b 0 0) := by
  unfold iblk
  rw [View.read_apply]
  show V m c main_v2 _ = _
  rw [V_v2]
  refine reshape_rows _ _ s b ?_
  show win0_2.index t 0 * 64 + 1 * b.val = s.val * 64 + b.val
  rw [(idx2 t).1, hs]; omega

/-- Entry (0, k) of point t's block of sample times is sample time 128 * (t % 5) + k. -/
theorem time_block_of (c : Dev nD) (t : Fin cfg0.N) (k : Fin 128) (q : Fin 640) (hq : q.val = 128 * (t.val % 5) + k.val) :
    (iblk m c 3 t : Vec F S1x128 .f32) (ix2 0 k) = m ((c.tc : Thread nD τ).loc main_arg6) (ix2 0 q) := by
  unfold iblk
  rw [View.read_apply]
  show V m c main_arg6 _ = _
  rw [V_main_arg6]
  show m ((c.tc : Thread nD τ).loc main_arg6) _ = m ((c.tc : Thread nD τ).loc main_arg6) _
  congr 1
  funext a
  apply Fin.ext
  match a with
  | ⟨0, _⟩ => show win0_3.index t 0 * 1 + 1 * 0 = 0
              rw [(idx3 t).1]
  | ⟨1, _⟩ => show win0_3.index t 1 * 128 + 1 * k.val = q.val
              rw [(idx3 t).2, hq]; omega

/-- Entry (0, d) of the amplitudes' block is channel d's amplitude, at every point. -/
theorem amp_block (c : Dev nD) (t : Fin cfg0.N) (d : Fin 256) :
    (iblk m c 4 t : Vec F S1x256 .f32) (ix2 0 d) = m ((c.tc : Thread nD τ).loc main_arg3) (ix2 d 0) := by
  unfold iblk
  rw [View.read_apply]
  show V m c main_v3 _ = _
  rw [V_v3]
  refine reshape_channels _ _ d ?_
  show win0_4.index t 1 * 256 + 1 * d.val = d.val
  rw [(idx4 t).2]; omega

/-- Entry (0, d) of the phases' block is channel d's phase, at every point. -/
theorem phase_block (c : Dev nD) (t : Fin cfg0.N) (d : Fin 256) :
    (iblk m c 5 t : Vec F S1x256 .f32) (ix2 0 d) = m ((c.tc : Thread nD τ).loc main_arg4) (ix2 d 0) := by
  unfold iblk
  rw [View.read_apply]
  show V m c main_v4 _ = _
  rw [V_v4]
  refine reshape_channels _ _ d ?_
  show win0_5.index t 1 * 256 + 1 * d.val = d.val
  rw [(idx5 t).2]; omega

/-- Entry (0, d) of the channel multipliers' block is channel d's multiplier, at every point. -/
theorem mult_block (c : Dev nD) (t : Fin cfg0.N) (d : Fin 256) :
    (iblk m c 6 t : Vec F S1x256 .f32) (ix2 0 d) = m ((c.tc : Thread nD τ).loc main_arg5) (ix2 d 0) := by
  unfold iblk
  rw [View.read_apply]
  show V m c main_v5 _ = _
  rw [V_v5]
  refine reshape_channels _ _ d ?_
  show win0_6.index t 1 * 256 + 1 * d.val = d.val
  rw [(idx6 t).2]; omega

/-! ## The same four with the row-tile and the sample time written out -/

theorem sample_block (c : Dev nD) (t : Fin cfg0.N) (b : Fin 64) (k : Fin 128)
    (hs : t.val / 5 < 16) (hk : 128 * (t.val % 5) + k.val < 640) :
    (iblk m c 0 t : Vec F S64x128 .f32) (ix2 b k)
      = m ((c.tc : Thread nD τ).loc main_arg0) (ix4 ⟨t.val / 5, hs⟩ b 0 ⟨128 * (t.val % 5) + k.val, hk⟩) :=
  sample_block_of m c t b k ⟨t.val / 5, hs⟩ rfl ⟨128 * (t.val % 5) + k.val, hk⟩ rfl

theorem logfreq_block (c : Dev nD) (t : Fin cfg0.N) (b : Fin 64) (hs : t.val / 5 < 16) :
    (iblk m c 1 t : Vec F S64x1 .f32) (ix2 b 0) = m ((c.tc : Thread nD τ).loc main_arg1) (ix4 ⟨t.val / 5, hs⟩ b 0 0) :=
  logfreq_block_of m c t b ⟨t.val / 5, hs⟩ rfl

theorem delay_block (c : Dev nD) (t : Fin cfg0.N) (b : Fin 64) (hs : t.val / 5 < 16) :
    (iblk m c 2 t : Vec F S64x1 .f32) (ix2 b 0) = m ((c.tc : Thread nD τ).loc main_arg2) (ix4 ⟨t.val / 5, hs⟩ b 0 0) :=
  delay_block_of m c t b ⟨t.val / 5, hs⟩ rfl

theorem time_block (c : Dev nD) (t : Fin cfg0.N) (k : Fin 128) (hk : 128 * (t.val % 5) + k.val < 640) :
    (iblk m c 3 t : Vec F S1x128 .f32) (ix2 0 k)
      = m ((c.tc : Thread nD τ).loc main_arg6) (ix2 0 ⟨128 * (t.val % 5) + k.val, hk⟩) :=
  time_block_of m c t k ⟨128 * (t.val % 5) + k.val, hk⟩ rfl

end Cert.KernelIdeal.Blocks

end
-- ==== Proof.Accum.lean ====
/-
  What the output block and the carried scratch hold after every grid point, in closed form.

  Point n of the 80 works on row tile n / 5 and time tile n % 5. After it, the scratch holds, at row b and channel d,
  the angular frequency of row (n / 5, b) and channel d: written at the row tile's first time tile and carried
  unchanged through the other four. The output block holds, at (b, d), the sum of the first 128 * (n % 5 + 1) summands
  of row (n / 5, b) and channel d: zero plus the first 128 at the first time tile, and 128 more at each later one. Both
  are proved together by induction on the point; a later time tile reads what the point before left, which is the same
  row tile's.
-/
import proofs.«107737_j76433238000020_2_alg».proof.Proof.CaseValues
import proofs.«107737_j76433238000020_2_alg».proof.Proof.Payload
import proofs.«107737_j76433238000020_2_alg».proof.Proof.Blocks

noncomputable section

open Idealize.ShloMosaic Idealize.ShloMosaic.TcCoe Idealize.ShloMosaic.ValueIdx Idealize.SL.Sem

namespace Cert.KernelIdeal.Accum

open Cert.KernelIdeal Cert.KernelIdeal.Gen Cert.SineSum Cert.KernelIdeal.CaseValues Cert.KernelIdeal.Payload
  Cert.KernelIdeal.Blocks Finset

variable (m : (ℓ : Loc nD τ sig) → Buf (Elt Ideal) ℓ)

/-- The row tile of point n (for n below 80 it is n / 5). -/
def rowOf (n : ℕ) : Fin 16 := ⟨(n / 5) % 16, Nat.mod_lt _ (by decide)⟩

theorem rowOf_val (t : Fin cfg0.N) : (rowOf t.val).val = t.val / 5 := by
  have h : cfg0.N = 80 := N_0
  have := t.isLt
  show (t.val / 5) % 16 = t.val / 5
  omega

/-- The summands of row (s, b) and channel d over the argument arrays as the program finds them. -/
abbrev rowG (c : Dev nD) (s : Fin 16) (b : Fin 64) (d : Fin 256) : ℕ → EReal :=
  rowTerm (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) s b d

/-- The angular frequency of row (s, b) and channel d. -/
abbrev rowF (c : Dev nD) (s : Fin 16) (b : Fin 64) (d : Fin 256) : EReal :=
  freq (m ((c.tc : Thread nD τ).loc main_arg1) (ix4 s b 0 0)) (m ((c.tc : Thread nD τ).loc main_arg5) (ix2 d 0))

/-- The statement about point n: the scratch at the frequencies, the output block at the running sum. -/
def Holds (c : Dev nD) (n : ℕ) (h : n < cfg0.N) : Prop :=
  ∀ (b : Fin 64) (d : Fin 256),
    (outsAt0 m c n h).2 (ix2 b d) = rowF m c (rowOf n) b d
    ∧ (outsAt0 m c n h).1 (ix2 b d) = ∑ k ∈ range (128 * (n % 5 + 1)), rowG m c (rowOf n) b d k

/-- One time tile's 128 summands over the point's blocks, with the frequency already known, are the row's summands
    128 * (t % 5) + k. -/
theorem tile_sum (c : Dev nD) (t : Fin cfg0.N) (b : Fin 64) (d : Fin 256) :
    ∑ k : Fin 128, wave (rowF m c (rowOf t.val) b d) ((iblk m c 2 t : Vec Ideal S64x1 .f32) (ix2 b 0))
        ((iblk m c 4 t : Vec Ideal S1x256 .f32) (ix2 0 d)) ((iblk m c 5 t : Vec Ideal S1x256 .f32) (ix2 0 d))
        ((iblk m c 0 t : Vec Ideal S64x128 .f32) (ix2 b k)) ((iblk m c 3 t : Vec Ideal S1x128 .f32) (ix2 0 k))
      = ∑ k : Fin 128, rowG m c (rowOf t.val) b d (128 * (t.val % 5) + k.val) := by
  refine Finset.sum_congr rfl fun k _ => ?_
  have hq : (wrap (128 * (t.val % 5) + k.val)).val = 128 * (t.val % 5) + k.val :=
    Nat.mod_eq_of_lt (time_lt t k)
  rw [delay_block_of m c t b (rowOf t.val) (rowOf_val t), amp_block m c t d, phase_block m c t d,
    sample_block_of m c t b k (rowOf t.val) (rowOf_val t) _ hq, time_block_of m c t k _ hq]
  rfl

set_option maxHeartbeats 1000000 in
/-- After a row tile's first point the scratch is the stored frequencies of the point's blocks. -/
theorem scratch_at_first (c : Dev nD) (t : Fin cfg0.N) (h0 : t.val % 5 = 0) :
    (outsAt0 m c t.val t.isLt).2 = k0_pay2 (iblk m c 1 t) (iblk m c 6 t) := by
  rw [outsAt0_A m c t h0]
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

set_option maxHeartbeats 1000000 in
/-- After a row tile's first point the output block is zeros plus the first partial sum. -/
theorem out_at_first (c : Dev nD) (t : Fin cfg0.N) (h0 : t.val % 5 = 0) :
    (outsAt0 m c t.val t.isLt).1 = k0_pay3 (k0_pay2 (iblk m c 1 t) (iblk m c 6 t)) (iblk m c 3 t) (iblk m c 2 t)
      (iblk m c 5 t) (iblk m c 4 t) (iblk m c 0 t) (k0_pay1 (F := Ideal)) := by
  rw [outsAt0_A m c t h0]
  exact out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- After a later point the scratch is what the point before left. -/
theorem scratch_at_later (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  rfl

set_option maxHeartbeats 1000000 in
/-- After a later point the output block is what the point before left plus this point's partial sum. -/
theorem out_at_later (c : Dev nD) (t : Fin cfg0.N) (h0 : ¬t.val % 5 = 0) :
    (outsAt0 m c t.val t.isLt).1 = k0_pay3 (outsAt0 m c (t.val - 1) (Nat.lt_of_le_of_lt (Nat.sub_le _ _) t.isLt)).2 (iblk m c 3 t) (iblk m c 2 t)
      (iblk m c 5 t) (iblk m c 4 t) (iblk m c 0 t) (outsAt0 m c (t.val - 1) (Nat.lt_of_le_of_lt (Nat.sub_le _ _) t.isLt)).1 := by
  rw [outsAt0_B m c t h0]
  exact out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).1 (outsAt0 m c (t.val - 1) (Nat.lt_of_le_of_lt (Nat.sub_le _ _) t.isLt)).2

/-- The stored frequencies of a point's blocks, at (b, d), are the row's and the channel's angular frequency. -/
theorem freq_at (c : Dev nD) (t : Fin cfg0.N) (b : Fin 64) (d : Fin 256) :
    k0_pay2 (F := Ideal) (iblk m c 1 t) (iblk m c 6 t) (ix2 b d) = rowF m c (rowOf t.val) b d := by
  refine (freq_apply (iblk m c 1 t) (iblk m c 6 t) b d).trans ?_
  rw [logfreq_block_of m c t b (rowOf t.val) (rowOf_val t), mult_block m c t d]

/-- The first time tile of a row tile. -/
theorem holds_first (c : Dev nD) (t : Fin cfg0.N) (h0 : t.val % 5 = 0) : Holds m c t.val t.isLt := by
  intro b d
  refine ⟨?_, ?_⟩
  · rw [scratch_at_first m c t h0]
    exact freq_at m c t b d
  · rw [out_at_first m c t h0]
    refine (out_apply (k0_pay2 (iblk m c 1 t) (iblk m c 6 t)) (iblk m c 3 t) (iblk m c 2 t) (iblk m c 5 t) (iblk m c 4 t)
      (iblk m c 0 t) (k0_pay1 (F := Ideal)) b d).trans ?_
    rw [freq_at m c t b d, zeros_apply, tile_sum m c t b d, h0]
    exact first_stretch (rowG m c (rowOf t.val) b d)

/-- A later time tile, given the statement at the point before. -/
theorem holds_later (c : Dev nD) (t : Fin cfg0.N) (h0 : ¬t.val % 5 = 0)
    (ih : Holds m c (t.val - 1) (Nat.lt_of_le_of_lt (Nat.sub_le _ _) t.isLt)) : Holds m c t.val t.isLt := by
  intro b d
  have hrow : rowOf (t.val - 1) = rowOf t.val := Fin.ext (by show ((t.val - 1) / 5) % 16 = (t.val / 5) % 16; omega)
  have hj : (t.val - 1) % 5 + 1 = t.val % 5 := by omega
  obtain ⟨ihF, ihS⟩ := ih b d
  rw [hrow] at ihF ihS
  rw [hj] at ihS
  refine ⟨?_, ?_⟩
  · rw [scratch_at_later m c t h0]
    exact ihF
  · rw [out_at_later m c t h0]
    refine (out_apply (outsAt0 m c (t.val - 1) (Nat.lt_of_le_of_lt (Nat.sub_le _ _) t.isLt)).2 (iblk m c 3 t) (iblk m c 2 t)
      (iblk m c 5 t) (iblk m c 4 t) (iblk m c 0 t) (outsAt0 m c (t.val - 1) (Nat.lt_of_le_of_lt (Nat.sub_le _ _) t.isLt)).1 b d).trans ?_
    rw [ihF, ihS, tile_sum m c t b d]
    exact next_stretch (rowG m c (rowOf t.val) b d) (t.val % 5)

/-- The statement holds at every point. -/
theorem holds (c : Dev nD) : ∀ (n : ℕ) (h : n < cfg0.N), Holds m c n h
  | 0, h => holds_first m c ⟨0, h⟩ rfl
  | n + 1, h => by
    by_cases h0 : (n + 1) % 5 = 0
    · exact holds_first m c ⟨n + 1, h⟩ h0
    · exact holds_later m c ⟨n + 1, h⟩ h0 (holds c n (Nat.lt_of_succ_lt h))

end Cert.KernelIdeal.Accum

end
-- ==== Proof.KernelValue.lean ====
/-
  The kernel program's result array.

  The output block of row tile s is written back once, after the row tile's fifth time tile, when it holds at (b, d) the
  sum of all 640 summands of row (s, b) and channel d. Block s covers rows 64 * s .. 64 * s + 63 of the [1024, 256] array,
  so the 16 blocks written back tile it, and the array ends holding, at (n, d), the total of row (n / 64, n % 64) and
  channel d. The reshape that follows the region keeps the row-major order: entry (s, b, d) of the [16, 64, 256] result is
  the array's entry (64 * s + b, d), the total of row (s, b) and channel d.
-/
import proofs.«107737_j76433238000020_2_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.SineSum Cert.KernelIdeal.Accum Finset

variable (m : (ℓ : Loc nD τ sig) → Buf (Elt Ideal) ℓ) (ρ : Dev nD → PrngReg)

/-- The totals over the argument arrays as the program finds them. -/
abbrev totals (c : Dev nD) : S16x64x256.Idx → EReal :=
  total (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- The [1024, 256] array the region leaves: row n is row (n / 64, n % 64) of the totals. -/
def flat (c : Dev nD) : S1024x256.Idx → EReal := fun j =>
  totals m c (ix3 ⟨(j 0).val / 64, by have h : (j 0).val < 1024 := (j 0).isLt; omega⟩
    ⟨(j 0).val % 64, Nat.mod_lt _ (by decide)⟩ (j 1))

/-- The output window's block at point t is block (t / 5, 0). -/
theorem idx7 : ∀ t : Fin cfg0.N, win0_7.index t (0 : Fin 2) = t.val / 5 ∧ win0_7.index t (1 : Fin 2) = 0 :=
  (by decide +kernel : ∀ t : Fin grid0.N, win0_7.index t (0 : Fin 2) = t.val / 5 ∧ win0_7.index t (1 : Fin 2) = 0)

/-- After a row tile's last time tile its output block holds, at (b, d), the array's entry (64 * (t / 5) + b, d). -/
theorem block_eq_flat (c : Dev nD) (t : Fin cfg0.N) (h4 : t.val % 5 = 4) (b : Fin 64) (d : Fin 256) (i : S1024x256.Idx)
    (h0 : (i 0).val = t.val / 5 * 64 + b.val) (h1 : (i 1).val = d.val) :
    (outsAt0 m c t.val t.isLt).1 (ix2 b d) = flat m c i := by
  rw [((holds m c t.val t.isLt) b d).2, h4]
  unfold flat
  show _ = ∑ k ∈ range 640, rowG m c _ _ _ k
  have e0 : (⟨(i 0).val / 64, by have h : (i 0).val < 1024 := (i 0).isLt; omega⟩ : Fin 16) = rowOf t.val :=
    Fin.ext (by rw [rowOf_val t]; show (i 0).val / 64 = t.val / 5; have := b.isLt; omega)
  have e1 : (⟨(i 0).val % 64, Nat.mod_lt _ (by decide)⟩ : Fin 64) = b :=
    Fin.ext (by show (i 0).val % 64 = b.val; have := b.isLt; omega)
  have e2 : i 1 = d := Fin.ext h1
  rw [e0, e1, e2]

/-- What a writing point writes back is its block of the array. -/
theorem flushed_eq (c : Dev nD) (t : Fin cfg0.N) (hf : (cfg0.win 7).flush t = true) :
    (dats m 0 c).flushed 7 t = ((cfg0.win 7).blk t).view.read (Elt Ideal) (flat m c) := by
  have h4 : t.val % 5 = 4 := (flush0_7 t).mp hf
  show (cfg0.win 7).cut (grid0.coords t) ((dats m 0 c).after 7 t) = _
  rw [after0_7]
  funext y
  show (outsAt0 m c t.val t.isLt).1 y = flat m c (((cfg0.win 7).blk t).view.emb y)
  refine (congrArg (outsAt0 m c t.val t.isLt).1 (eq_ix2 y)).trans
    (block_eq_flat m c t h4 (y 0) (y 1) (((cfg0.win 7).blk t).view.emb y) ?_ ?_)
  · show win0_7.index t (0 : Fin 2) * 64 + 1 * (y 0).val = t.val / 5 * 64 + (y 0).val
    rw [(idx7 t).1]; omega
  · show win0_7.index t (1 : Fin 2) * 256 + 1 * (y 1).val = (y 1).val
    rw [(idx7 t).2]; omega

/-- An index of the array is in point t's block iff each coordinate is in the block's range on its axis. -/
theorem mem_blk (t : Fin cfg0.N) (i : S1024x256.Idx) :
    i ∈ ((cfg0.win 7).blk t).view.set ↔ ∀ a : Fin 2, win0_7.index t a * S64x256.size a ≤ (i a).val
      ∧ (i a).val < win0_7.index t a * S64x256.size a + S64x256.size a := by
  show i ∈ ((View.whole main_v6).slice (win0_7.rect t)).set ↔ _
  rw [View.set_slice_whole, Rect.mem_set_unit]
  exact Iff.rfl

/-- Every entry of the array is in the block some row tile's last point writes back. -/
theorem covered (i : S1024x256.Idx) :
    ∃ t : Fin cfg0.N, (cfg0.win 7).flush t = true ∧ i ∈ ((cfg0.win 7).blk t).view.set := by
  have hN : cfg0.N = 80 := N_0
  have hi0 : (i 0).val < 1024 := (i 0).isLt
  have hi1 : (i 1).val < 256 := (i 1).isLt
  refine ⟨⟨5 * ((i 0).val / 64) + 4, by omega⟩, (flush0_7 _).mpr (by show (5 * ((i 0).val / 64) + 4) % 5 = 4; omega), ?_⟩
  rw [mem_blk]
  intro a
  match a with
  | ⟨0, _⟩ =>
    show win0_7.index ⟨5 * ((i 0).val / 64) + 4, _⟩ (0 : Fin 2) * 64 ≤ (i 0).val
      ∧ (i 0).val < win0_7.index ⟨5 * ((i 0).val / 64) + 4, _⟩ (0 : Fin 2) * 64 + 64
    rw [(idx7 _).1]
    show (5 * ((i 0).val / 64) + 4) / 5 * 64 ≤ (i 0).val ∧ (i 0).val < (5 * ((i 0).val / 64) + 4) / 5 * 64 + 64
    omega
  | ⟨1, _⟩ =>
    show win0_7.index ⟨5 * ((i 0).val / 64) + 4, _⟩ (1 : Fin 2) * 256 ≤ (i 1).val
      ∧ (i 1).val < win0_7.index ⟨5 * ((i 0).val / 64) + 4, _⟩ (1 : Fin 2) * 256 + 256
    rw [(idx7 _).2]
    omega

/-- So the array ends holding the flattened totals. -/
theorem final (c : Dev nD) : (dats m 0 c).arrAt 7 cfg0.N = flat m c :=
  (dats m 0 c).arrAt_eq_of_cover 7 (flat m c) (flushed_eq m c) (covered)

/-- The flattened totals reshaped to [16, 64, 256] are the totals. -/
theorem reshape_flat (c : Dev nD) :
    shapeCast S16x64x256 (flat m c) shapeCasts_S1024x256_S16x64x256 = totals m c := by
  funext i
  have hi1 : (i 1).val < 64 := (i 1).isLt
  have hi0 : (i 0).val < 16 := (i 0).isLt
  refine (shapeCast_apply (flat m c) shapeCasts_S1024x256_S16x64x256 i
    (ix2 ⟨(i 0).val * 64 + (i 1).val, by omega⟩ (i 2)) ?_).trans ?_
  · rw [Shape.rowMajor_val_two, Shape.rowMajor_val_three]
    rfl
  · unfold flat
    refine congrArg (totals m c) (funext fun a => Fin.ext ?_)
    match a with
    | ⟨0, _⟩ => show ((i 0).val * 64 + (i 1).val) / 64 = (i 0).val; omega
    | ⟨1, _⟩ => show ((i 0).val * 64 + (i 1).val) % 64 = (i 1).val; omega
    | ⟨2, _⟩ => rfl

/-- The program's result after the reshape that follows the region. -/
theorem result_eq (c : Dev nD) :
    Pipeline.afterTail₀ cfgs (dats m) 0 (V0 m) [hostOps1] c main_v7 = totals m c := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v6)
      = flat m c from (Pipeline.withArrays_arr spec0 launch0.win.arr_inj c _ _ 7).trans (final m c)]
  exact reshape_flat m c

/-- The run, read: the result at the totals of the arguments, the arguments unchanged. -/
theorem run : θ_run defs (onTc (τ := τ) (main (F := Ideal))) ⟨m, fun _ => 0, ρ⟩ fun r => ∀ c : Dev nD,
      r.2.mem ((c.tc : Thread nD τ).loc main_v7) = totals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c)))⟩)
    (run_main m ρ)

end Cert.KernelIdeal.KernelValue

end
-- ==== Proof.RefValue.lean ====
/-
  The reference program read at one result entry.

  The reference builds, for every row (s, b), channel d and sample time k, the term
      (a_d * sin ((w_d * exp (nlf_sb * c1 + c0)) * (t_k - tau_sb) + phi_d)) * x_sbk
  by broadcasting each parameter to the common 16 x 64 x 256 x 640 index set, and then adds the 640 terms of each
  (s, b, d) into the zero word in one sum. Read at (s, b, d), each broadcast is a read of its operand at the index that
  keeps the operand's own coordinates and puts 0 on the axes of extent one; composing those index maps gives the
  coordinates (s, b, 0, 0), (d, 0), (0, k) and (s, b, 0, k) that the specification names. With the index maps identified,
  the reference's term is the specification's summand operation for operation, with the same operand order in every
  product, sum and difference, so no law of arithmetic is used; the one-sum arrangement of the specification then gives
  the total.
-/
import proofs.«107737_j76433238000020_2_alg».proof.Proof.Gen.ReferenceIdeal.Read
import proofs.«107737_j76433238000020_2_alg».proof.Proof.SineSum

noncomputable section

open Idealize.ShloMosaic Idealize.ShloMosaic.ValueIdx Cert.ReferenceIdeal Cert.ReferenceIdeal.Read

namespace Cert.ReferenceIdeal.RefValue

/-! ## The composed index maps, as coordinates

  Each lemma follows one parameter from the common index (s, b, d, k) back through its broadcasts to the parameter's
  own index. Both sides are functions on a finite set of axes; they agree axis by axis by computation. -/

/-- The amplitude a is read at (d, 0). -/
theorem idx_amp (i : S16x64x256.Idx) (k : Fin 640) :
    idx_main_v20 (idx_main_v21 (idx_main_v25 i k)) = (ix2 (i 2) 0 : S256x1.Idx) :=
  funext fun a => Fin.ext (by match a with | ⟨0, _⟩ => rfl | ⟨1, _⟩ => rfl)

/-- The phase phi is read at (d, 0). -/
theorem idx_phase (i : S16x64x256.Idx) (k : Fin 640) :
    idx_main_v16 (idx_main_v17 (idx_main_v25 i k)) = (ix2 (i 2) 0 : S256x1.Idx) :=
  funext fun a => Fin.ext (by match a with | ⟨0, _⟩ => rfl | ⟨1, _⟩ => rfl)

/-- The channel multiplier w is read at (d, 0). -/
theorem idx_mult (i : S16x64x256.Idx) (k : Fin 640) :
    idx_main_v9 (idx_main_v10 (idx_main_v13 (idx_main_v25 i k))) = (ix2 (i 2) 0 : S256x1.Idx) :=
  funext fun a => Fin.ext (by match a with | ⟨0, _⟩ => rfl | ⟨1, _⟩ => rfl)

/-- The log-frequency nlf is read at (s, b, 0, 0). -/
theorem idx_nlf (i : S16x64x256.Idx) (k : Fin 640) :
    idx_main_v11 (idx_main_v13 (idx_main_v25 i k)) = (ix4 (i 0) (i 1) 0 0 : S16x64x1x1.Idx) :=
  funext fun a => Fin.ext (by match a with | ⟨0, _⟩ => rfl | ⟨1, _⟩ => rfl | ⟨2, _⟩ => rfl | ⟨3, _⟩ => rfl)

/-- The delay tau is read at (s, b, 0, 0). -/
theorem idx_delay (i : S16x64x256.Idx) (k : Fin 640) :
    idx_main_v7 (idx_main_v14 (idx_main_v25 i k)) = (ix4 (i 0) (i 1) 0 0 : S16x64x1x1.Idx) :=
  funext fun a => Fin.ext (by match a with | ⟨0, _⟩ => rfl | ⟨1, _⟩ => rfl | ⟨2, _⟩ => rfl | ⟨3, _⟩ => rfl)

/-- The sample time t is read at (0, k). -/
theorem idx_time (i : S16x64x256.Idx) (k : Fin 640) :
    idx_main_v5 (idx_main_v6 (idx_main_v14 (idx_main_v25 i k))) = (ix2 0 k : S1x640.Idx) :=
  funext fun a => Fin.ext (by match a with | ⟨0, _⟩ => rfl | ⟨1, _⟩ => rfl)

/-- The sample x is read at (s, b, 0, k). -/
theorem idx_sample (i : S16x64x256.Idx) (k : Fin 640) :
    idx_main_v23 (idx_main_v25 i k) = (ix4 (i 0) (i 1) 0 k : S16x64x1x640.Idx) :=
  funext fun a => Fin.ext (by match a with | ⟨0, _⟩ => rfl | ⟨1, _⟩ => rfl | ⟨2, _⟩ => rfl | ⟨3, _⟩ => rfl)

/-! ## One term of the reference is one summand of the specification -/

/-- The reference's product array at (s, b, d, k) is the summand of row (s, b), channel d and sample time k. -/
theorem term_eq (x0 : (⟨S16x64x1x640, .f32⟩ : BufTy).Contents (Elt Ideal))
    (x1 x2 : (⟨S16x64x1x1, .f32⟩ : BufTy).Contents (Elt Ideal))
    (x3 x4 x5 : (⟨S256x1, .f32⟩ : BufTy).Contents (Elt Ideal))
    (x6 : (⟨S1x640, .f32⟩ : BufTy).Contents (Elt Ideal)) (i : S16x64x256.Idx) (k : Fin 640) :
    val_main_v24 (F := Ideal) x0 x1 x2 x3 x4 x5 x6 (idx_main_v25 i k)
      = Cert.SineSum.summand (x1 (ix4 (i 0) (i 1) 0 0)) (x2 (ix4 (i 0) (i 1) 0 0))
          (x3 (ix2 (i 2) 0)) (x4 (ix2 (i 2) 0)) (x5 (ix2 (i 2) 0)) (x0 (ix4 (i 0) (i 1) 0 k)) (x6 (ix2 0 k)) := by
  rw [val_main_v24_apply, val_main_v22_apply, val_main_v21_apply, val_main_v20_apply, val_main_v19_apply,
    val_main_v18_apply, val_main_v15_apply, val_main_v13_apply, val_main_v12_apply, val_main_v10_apply,
    val_main_v9_apply, val_main_v11_apply, val_main_v4_apply, val_main_v3_apply, val_main_v1_apply,
    val_main_v0_apply, val_main_cst_apply, val_main_v2_apply, val_main_cst_0_apply, val_main_v14_apply,
    val_main_v8_apply, val_main_v6_apply, val_main_v5_apply, val_main_v7_apply, val_main_v17_apply,
    val_main_v16_apply, val_main_v23_apply]
  rw [idx_amp, idx_phase, idx_mult, idx_nlf, idx_delay, idx_time, idx_sample]
  unfold Cert.SineSum.summand Cert.SineSum.freq Cert.SineSum.wave
  simp only [Ideal.mulf_def, Ideal.addf_def, Ideal.subf_def, Ideal.hostUnary_exp_def, Ideal.hostUnary_sin_def,
    Ideal.ofBits_def]

/-! ## The result -/

/-- The reference's result is the total: at each (s, b, d) it is the zero word plus the sum of the 640 summands. -/
theorem result_eq (x0 : (⟨S16x64x1x640, .f32⟩ : BufTy).Contents (Elt Ideal))
    (x1 x2 : (⟨S16x64x1x1, .f32⟩ : BufTy).Contents (Elt Ideal))
    (x3 x4 x5 : (⟨S256x1, .f32⟩ : BufTy).Contents (Elt Ideal))
    (x6 : (⟨S1x640, .f32⟩ : BufTy).Contents (Elt Ideal)) :
    Cert.ReferenceIdeal.Read.val_main_v25 (F := Ideal) x0 x1 x2 x3 x4 x5 x6
      = Cert.SineSum.total x0 x1 x2 x3 x4 x5 x6 := by
  funext i
  rw [← Cert.SineSum.zero_add_sum_eq_total, val_main_v25_apply, val_main_cst_1_apply, Ideal.ofBits_def]
  exact congrArg (_ + ·) (Finset.sum_congr rfl fun k _ => term_eq x0 x1 x2 x3 x4 x5 x6 i k)

end Cert.ReferenceIdeal.RefValue

end
-- ==== Proof.lean ====
/- The five claims about the sinusoidal-basis kernel and its reference.

   Both programs compute, for each of the 16 x 64 rows (s, b) and each of the 256 channels d, the sum over the 640 sample
   times k of (a_d * sin ((w_d * exp (nlf_sb * c1 + c0)) * (t_k - tau_sb) + phi_d)) * x_sbk, with the same two literal
   words c1 and c0, the same operand order in every product, sum and difference, and exp and sin the same functions on
   the extended reals in both. The reference adds the 640 summands in one sum from zero. The kernel works on 64 rows and
   128 sample times at a time: at a row tile's first time tile it zeroes its output block and stores the rows' angular
   frequencies, and at each of the five time tiles it adds that tile's 128 summands into the block; the block is written
   back after the fifth, and a reshape follows. Addition on the extended reals is associative and commutative with no side
   condition, so the five stretches of 128 added one after the other from zero are the one sum of 640: the results are
   equal for all inputs, and the precondition is not used.

   The three frame claims are the programs' runs: the two kernels' are the frame theorems of their launches, the
   reference's is its run with the result dropped. The idealization rewrote nothing, so the fourth claim is trivial. -/
import proofs.«107737_j76433238000020_2_alg».proof.Defs
import proofs.«107737_j76433238000020_2_alg».proof.Proof.Gen.Kernel
import proofs.«107737_j76433238000020_2_alg».proof.Proof.Gen.Kernel.Skeleton
import proofs.«107737_j76433238000020_2_alg».proof.Proof.Gen.Kernel.Launch
import proofs.«107737_j76433238000020_2_alg».proof.Proof.Gen.Kernel.Points
import proofs.«107737_j76433238000020_2_alg».proof.Proof.Gen.Kernel.Frame
import proofs.«107737_j76433238000020_2_alg».proof.Proof.Gen.KernelIdeal
import proofs.«107737_j76433238000020_2_alg».proof.Proof.Gen.KernelIdeal.Skeleton
import proofs.«107737_j76433238000020_2_alg».proof.Proof.Gen.KernelIdeal.Launch
import proofs.«107737_j76433238000020_2_alg».proof.Proof.Gen.KernelIdeal.Points
import proofs.«107737_j76433238000020_2_alg».proof.Proof.Gen.KernelIdeal.Frame
import proofs.«107737_j76433238000020_2_alg».proof.Proof.Gen.ReferenceIdeal
import proofs.«107737_j76433238000020_2_alg».proof.Proof.Gen.ReferenceIdeal.Run
import proofs.«107737_j76433238000020_2_alg».proof.Proof.Gen.ReferenceIdeal.Read
import proofs.«107737_j76433238000020_2_alg».proof.Proof.Gen.Pre_finite_inputs
import Idealize.ShloMosaic.Adequacy
import Idealize.ShloMosaic.Init
import proofs.«107737_j76433238000020_2_alg».proof.Proof.KernelValue
import proofs.«107737_j76433238000020_2_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on the arguments both programs end with the totals of those arguments: the kernel's result
    array by the accumulation over its grid, the reference's by reading its operations at an index. -/
theorem algebraic : Cert.algebraic_KernelIdeal_ReferenceIdeal := by
  intro m ρ m' ρ' _ hagree
  refine ⟨fun c => Cert.KernelIdeal.KernelValue.totals m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v25_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
